-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512x4096 : Shape := ⟨2, ![512, 4096]⟩
abbrev S8388608 : Shape := ⟨1, ![8388608]⟩
abbrev S2048 : Shape := ⟨1, ![2048]⟩
abbrev S2048x4096 : Shape := ⟨2, ![2048, 4096]⟩
abbrev S2048x2048 : Shape := ⟨2, ![2048, 2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S8388608 : S_.BroadcastsInDim S8388608 (![] : Fin 0 → Fin S8388608.rank)
  reducesTo_S8388608_S_d0 : S8388608.ReducesTo [0] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg11 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S2048 .f32) (main_arg8 : FVec F S2048 .f32) (main_arg9 : FVec F S2048 .f32) (main_arg10 : FVec F S2048x2048 .f32) (main_arg11 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_v48 main_v49 main_v50

def fn_part1 {F : FTy → Type} [FloatOps F] (main_arg4 : FVec F S2048x4096 .f32) (main_arg5 : FVec F S2048 .f32) (main_arg6 : FVec F S2048 .f32) (main_arg7 : FVec F S2048 .f32) (main_arg8 : FVec F S2048 .f32) (main_arg9 : FVec F S2048 .f32) (main_arg10 : FVec F S2048x2048 .f32) (main_arg11 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x2048 .f32) (main_arg1 : FVec F S512x4096 .f32) (main_arg2 : FVec F S8388608 .f32) (main_arg3 : FVec F S2048 .f32) (main_arg4 : FVec F S2048x4096 .f32) (main_arg5 : FVec F S2048 .f32) (main_arg6 : FVec F S2048 .f32) (main_arg7 : FVec F S2048 .f32) (main_arg8 : FVec F S2048 .f32) (main_arg9 : FVec F S2048 .f32) (main_arg10 : FVec F S2048x2048 .f32) (main_arg11 : FVec F S2048 .f32) (main_arg12 : IVec S2048x4096 32) (main_arg13 : IVec S2048 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S8388608 .f32 := Host.absf main_arg2
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_v13 main_v16
-- ==== Kernel.lean ====
abbrev S512x2048 : Shape := ⟨2, ![512, 2048]⟩
abbrev S512x4096 : Shape := ⟨2, ![512, 4096]⟩
abbrev S8388608 : Shape := ⟨1, ![8388608]⟩
abbrev S2048 : Shape := ⟨1, ![2048]⟩
abbrev S2048x4096 : Shape := ⟨2, ![2048, 4096]⟩
abbrev S2048x2048 : Shape := ⟨2, ![2048, 2048]⟩
abbrev S_ : Shape := ⟨0, ![]⟩
abbrev S2048x4096x1 : Shape := ⟨3, ![2048, 4096, 1]⟩
abbrev S2048x1 : Shape := ⟨2, ![2048, 1]⟩
abbrev S1x2048 : Shape := ⟨2, ![1, 2048]⟩
abbrev S1x512 : Shape := ⟨2, ![1, 512]⟩
abbrev S512x512 : Shape := ⟨2, ![512, 512]⟩

abbrev nBuf : Space → Nat
  | .hbm => 45
  | .vmem => 24
  | .smem => 0
  | _ => 0

abbrev bufTy : (tb : Table) → Fin (tcTables nBuf tb) → BufTy
  | .hbm, ⟨0, _⟩ => ⟨S512x2048, .f32⟩
  | .hbm, ⟨1, _⟩ => ⟨S512x4096, .f32⟩
  | .hbm, ⟨2, _⟩ => ⟨S8388608, .f32⟩
  | .hbm, ⟨3, _⟩ => ⟨S2048, .f32⟩
  | .hbm, ⟨4, _⟩ => ⟨S2048x4096, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x4096, .i32⟩
  | .hbm, ⟨13, _⟩ => ⟨S2048, .i32⟩
  | .hbm, ⟨14, _⟩ => ⟨S_, .i32⟩
  | .hbm, ⟨15, _⟩ => ⟨S2048x4096, .i32⟩
  | .hbm, ⟨16, _⟩ => ⟨S2048x4096, .i1⟩
  | .hbm, ⟨17, _⟩ => ⟨S_, .i32⟩
  | .hbm, ⟨18, _⟩ => ⟨S2048x4096, .i32⟩
  | .hbm, ⟨19, _⟩ => ⟨S2048x4096, .i32⟩
  | .hbm, ⟨20, _⟩ => ⟨S2048x4096, .i32⟩
  | .hbm, ⟨21, _⟩ => ⟨S2048x4096x1, .i32⟩
  | .hbm, ⟨22, _⟩ => ⟨S2048x4096, .f32⟩
  | .hbm, ⟨23, _⟩ => ⟨S2048x4096, .f32⟩
  | .hbm, ⟨24, _⟩ => ⟨S2048x4096, .bf16⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048, .f32⟩
  | .hbm, ⟨34, _⟩ => ⟨S2048, .f32⟩
  | .hbm, ⟨35, _⟩ => ⟨S512x4096, .bf16⟩
  | .hbm, ⟨36, _⟩ => ⟨S2048x2048, .bf16⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S512x2048, .bf16⟩
  | .hbm, ⟨44, _⟩ => ⟨S512x2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S1x512, .f32⟩
  | .local _ .vmem, ⟨21, _⟩ => ⟨S1x512, .f32⟩
  | .local _ .vmem, ⟨22, _⟩ => ⟨S512x512, .f32⟩
  | .local _ .vmem, ⟨23, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc1_sem0_0 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2048x4096 : S_.BroadcastsInDim S2048x4096 (![] : Fin 0 → Fin S2048x4096.rank)
  bcast_S2048x4096_S2048x4096x1_0_1 : S2048x4096.BroadcastsInDim S2048x4096x1 (![0, 1] : Fin 2 → Fin S2048x4096x1.rank)
  bitsLt_bf16_f32 : FTy.bits .bf16 < FTy.bits .f32
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S1x2048 : S2048.ShapeCasts S1x2048
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  gather_S8388608_S2048x4096x1_S2048x4096_n_0_n_n_0_2_1_wf : GatherDims.WF S8388608 S2048x4096x1 S2048x4096 [] [0] [] [0] [] 2 ![1]
  gather_S2048_S2048x1_S2048_n_0_n_n_0_1_1_wf : GatherDims.WF S2048 S2048x1 S2048 [] [0] [] [0] [] 1 ![1]
  dot_S512x4096_S512x4096_S512x512_1_1_0_0_n_n_wf : DotDims.WF S512x4096 S512x4096 S512x512 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2048x4096.size a
  hwx0_1 : ∀ i : grid0.Coords, EltTy.bits .bf16 = 32 ∨ (Rect.block (s := S2048x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x2048.size a
  hwx0_3 : ∀ i : grid0.Coords, EltTy.bits .f32 = 32 ∨ (Rect.block (s := S512x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x2048.size a
  hwx0_8 : ∀ i : grid0.Coords, EltTy.bits .bf16 = 32 ∨ (Rect.block (s := S512x2048) S512x512.size (cc0_transform_8 i) (hinb0_8 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S512x2048.size a
  hwx1_0 : ∀ i : grid1.Coords, EltTy.bits .bf16 = 32 ∨ (Rect.block (s := S512x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .bf16 = 32 ∨ (Rect.block (s := S2048x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x2048.size a
  hwx1_3 : ∀ i : grid1.Coords, EltTy.bits .f32 = 32 ∨ (Rect.block (s := S512x2048) S512x512.size (cc1_transform_3 i) (hinb1_3 i)).WholeWords (EltTy.packing .f32)

variable [Facts₀]

def gather_S8388608_S2048x4096x1_S2048x4096_n_0_n_n_0_2_1 : GatherDims S8388608 S2048x4096x1 S2048x4096 where
  offsetDims := []
  collapsedSliceDims := [0]
  operandBatchingDims := []
  startIndicesBatchingDims := []
  startIndexMap := [0]
  indexVectorDim := 2
  sliceSizes := ![1]
  wf := gather_S8388608_S2048x4096x1_S2048x4096_n_0_n_n_0_2_1_wf
def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v17) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v25) S512x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x2048 : Shape := ⟨2, ![512, 2048]⟩
abbrev S512x4096 : Shape := ⟨2, ![512, 4096]⟩
abbrev S8388608 : Shape := ⟨1, ![8388608]⟩
abbrev S2048 : Shape := ⟨1, ![2048]⟩
abbrev S2048x4096 : Shape := ⟨2, ![2048, 4096]⟩
abbrev S2048x2048 : Shape := ⟨2, ![2048, 2048]⟩
abbrev S_ : Shape := ⟨0, ![]⟩
abbrev S2048x4096x1 : Shape := ⟨3, ![2048, 4096, 1]⟩
abbrev S2048x1 : Shape := ⟨2, ![2048, 1]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x4096, .f32⟩
  | .hbm, ⟨2, _⟩ => ⟨S8388608, .f32⟩
  | .hbm, ⟨3, _⟩ => ⟨S2048, .f32⟩
  | .hbm, ⟨4, _⟩ => ⟨S2048x4096, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x4096, .i32⟩
  | .hbm, ⟨13, _⟩ => ⟨S2048, .i32⟩
  | .hbm, ⟨14, _⟩ => ⟨S_, .i32⟩
  | .hbm, ⟨15, _⟩ => ⟨S2048x4096, .i32⟩
  | .hbm, ⟨16, _⟩ => ⟨S2048x4096, .i1⟩
  | .hbm, ⟨17, _⟩ => ⟨S_, .i32⟩
  | .hbm, ⟨18, _⟩ => ⟨S2048x4096, .i32⟩
  | .hbm, ⟨19, _⟩ => ⟨S2048x4096, .i32⟩
  | .hbm, ⟨20, _⟩ => ⟨S2048x4096, .i32⟩
  | .hbm, ⟨21, _⟩ => ⟨S2048x4096x1, .i32⟩
  | .hbm, ⟨22, _⟩ => ⟨S2048x4096, .f32⟩
  | .hbm, ⟨23, _⟩ => ⟨S2048x4096, .f32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .f32⟩
  | .hbm, ⟨33, _⟩ => ⟨S2048, .f32⟩
  | .hbm, ⟨34, _⟩ => ⟨S512x2048, .f32⟩
  | .hbm, ⟨35, _⟩ => ⟨S1x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S1x2048, .f32⟩
  | .hbm, ⟨40, _⟩ => ⟨S512x2048, .f32⟩
  | .hbm, ⟨41, _⟩ => ⟨S512x2048, .f32⟩
  | .hbm, ⟨42, _⟩ => ⟨S1x2048, .f32⟩
  | .hbm, ⟨43, _⟩ => ⟨S512x2048, .f32⟩
  | .hbm, ⟨44, _⟩ => ⟨S512x2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S1x2048, .f32⟩
  | .hbm, ⟨50, _⟩ => ⟨S512x2048, .f32⟩
  | .hbm, ⟨51, _⟩ => ⟨S512x2048, .f32⟩
  | .hbm, ⟨52, _⟩ => ⟨S1x2048, .f32⟩
  | .hbm, ⟨53, _⟩ => ⟨S512x2048, .f32⟩
  | .hbm, ⟨54, _⟩ => ⟨S512x2048, .f32⟩
  | .hbm, ⟨55, _⟩ => ⟨S_, .f32⟩
  | .hbm, ⟨56, _⟩ => ⟨S512x2048, .f32⟩
  | .hbm, ⟨57, _⟩ => ⟨S512x2048, .f32⟩
  | .hbm, ⟨58, _⟩ => ⟨S512x2048, .f32⟩
  | .hbm, ⟨59, _⟩ => ⟨S1x2048, .f32⟩
  | .hbm, ⟨60, _⟩ => ⟨S512x2048, .f32⟩
  | .hbm, ⟨61, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  bcast_S2048x4096_S2048x4096x1_0_1 : S2048x4096.BroadcastsInDim S2048x4096x1 (![0, 1] : Fin 2 → Fin S2048x4096x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  bcast_S_S512x2048 : S_.BroadcastsInDim S512x2048 (![] : Fin 0 → Fin S512x2048.rank)
  gather_S8388608_S2048x4096x1_S2048x4096_n_0_n_n_0_2_1_wf : GatherDims.WF S8388608 S2048x4096x1 S2048x4096 [] [0] [] [0] [] 2 ![1]
  gather_S2048_S2048x1_S2048_n_0_n_n_0_1_1_wf : GatherDims.WF S2048 S2048x1 S2048 [] [0] [] [0] [] 1 ![1]
  dot_S512x4096_S2048x4096_S512x2048_1_1_0_0_n_n_wf : DotDims.WF S512x4096 S2048x4096 S512x2048 [1] [1] [0] [0] [] []
  dot_S512x2048_S2048x2048_S512x2048_1_1_0_0_n_n_wf : DotDims.WF S512x2048 S2048x2048 S512x2048 [1] [1] [0] [0] [] []

variable [Facts₀]

def gather_S8388608_S2048x4096x1_S2048x4096_n_0_n_n_0_2_1 : GatherDims S8388608 S2048x4096x1 S2048x4096 where
  offsetDims := []
  collapsedSliceDims := [0]
  operandBatchingDims := []
  startIndicesBatchingDims := []
  startIndexMap := [0]
  indexVectorDim := 2
  sliceSizes := ![1]
  wf := gather_S8388608_S2048x4096x1_S2048x4096_n_0_n_n_0_2_1_wf
def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def dot_S512x4096_S2048x4096_S512x2048_1_1_0_0_n_n : DotDims S512x4096 S2048x4096 S512x2048 where
  lhsContracting := [1]
  rhsContracting := [1]
  lhsNonContracting := [0]
  rhsNonContracting := [0]
  lhsBatch := []
  rhsBatch := []
  wf := dot_S512x4096_S2048x4096_S512x2048_1_1_0_0_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

class Facts : Prop extends Facts₀ where

variable [Facts]
-- ==== Proof.HostVals.lean ====
/-
  The host operations before the first region, read at the buffers the two regions use.

  From any contents `W` of the buffers, after the host stretch: the text features and the second weight matrix
  are their arguments (the change of float format is the identity on extended reals); the five per-feature
  vectors and the output bias are their arguments reshaped to 1×2048 rows; the hashed weight matrix is the
  flat table gathered at the wrapped indices times the sign matrix, and the hashed bias likewise.
-/
import proofs.«161983_j38104949850564_2_alg».proof.Proof.Gen.KernelIdeal.Launch
import Idealize.ShloMosaic.Lib.StableHlo.Run
import Idealize.ShloMosaic.PureOps.Ideal

noncomputable section

namespace Cert.KernelIdeal.KVal

open Cert.KernelIdeal Cert.KernelIdeal.Gen Idealize.ShloMosaic Idealize.ShloMosaic.TcCoe Idealize.ShloMosaic.StableHlo

/-- The hashed weight matrix: entry (o, t) is the flat table `hw` at index `ix[o, t]` (a negative index
    wrapped once by the table's length) times the sign `xi[o, t]`. -/
def hashedWeights (hw : FVec Ideal S8388608 .f32) (xi : FVec Ideal S2048x4096 .f32) (ix : IVec S2048x4096 32) :
    FVec Ideal S2048x4096 .f32 :=
  mulf (F := Ideal)
    (Host.gather gather_S8388608_S2048x4096x1_S2048x4096_n_0_n_n_0_2_1 hw
      (broadcastInDim S2048x4096x1 ![0, 1] bcast_S2048x4096_S2048x4096x1_0_1
        (select (cmpi CmpIPredicate.slt ix (broadcastInDim S2048x4096 ![] bcast_S_S2048x4096 (constantI S_ 32 0#32)))
          (addi ix (broadcastInDim S2048x4096 ![] bcast_S_S2048x4096 (constantI S_ 32 8388608#32))) ix)))
    xi

/-- The hashed bias: entry o is the table `hb` at the wrapped index `ix[o]` times the sign `xi[o]`. -/
def hashedBias (hb xi : FVec Ideal S2048 .f32) (ix : IVec S2048 32) : FVec Ideal S2048 .f32 :=
  mulf (F := Ideal)
    (Host.gather gather_S2048_S2048x1_S2048_n_0_n_n_0_1_1 hb
      (broadcastInDim S2048x1 ![0] bcast_S2048_S2048x1_0
        (select (cmpi CmpIPredicate.slt ix (broadcastInDim S2048 ![] bcast_S_S2048 (constantI S_ 32 0#32)))
          (addi ix (broadcastInDim S2048 ![] bcast_S_S2048 (constantI S_ 32 2048#32))) ix)))
    xi

variable (W : Valuation τ sig (Elt Ideal))

theorem host_arg0 : StableHlo.after (hostOps0 (F := Ideal)) W (Proc.devRef .tc main_arg0) = W (Proc.devRef .tc main_arg0) := by
  after_results_simp
theorem host_v17 : StableHlo.after (hostOps0 (F := Ideal)) W (Proc.devRef .tc main_v17) = W (Proc.devRef .tc main_arg1) := by
  after_results_simp; rfl
theorem host_v18 : StableHlo.after (hostOps0 (F := Ideal)) W (Proc.devRef .tc main_v18) = W (Proc.devRef .tc main_arg10) := by
  after_results_simp; rfl
theorem host_v8 : StableHlo.after (hostOps0 (F := Ideal)) W (Proc.devRef .tc main_v8)
    = hashedWeights (W (Proc.devRef .tc main_arg2)) (W (Proc.devRef .tc main_arg4)) (W (Proc.devRef .tc main_arg12)) := by
  after_results_simp; rfl
theorem host_v19 : StableHlo.after (hostOps0 (F := Ideal)) W (Proc.devRef .tc main_v19)
    = shapeCast S1x2048 (hashedBias (W (Proc.devRef .tc main_arg3)) (W (Proc.devRef .tc main_arg5)) (W (Proc.devRef .tc main_arg13)))
        shapeCasts_S2048_S1x2048 := by
  after_results_simp; rfl
theorem host_v20 : StableHlo.after (hostOps0 (F := Ideal)) W (Proc.devRef .tc main_v20)
    = shapeCast S1x2048 (W (Proc.devRef .tc main_arg6)) shapeCasts_S2048_S1x2048 := by
  after_results_simp; rfl
theorem host_v21 : StableHlo.after (hostOps0 (F := Ideal)) W (Proc.devRef .tc main_v21)
    = shapeCast S1x2048 (W (Proc.devRef .tc main_arg7)) shapeCasts_S2048_S1x2048 := by
  after_results_simp; rfl
theorem host_v22 : StableHlo.after (hostOps0 (F := Ideal)) W (Proc.devRef .tc main_v22)
    = shapeCast S1x2048 (W (Proc.devRef .tc main_arg8)) shapeCasts_S2048_S1x2048 := by
  after_results_simp; rfl
theorem host_v23 : StableHlo.after (hostOps0 (F := Ideal)) W (Proc.devRef .tc main_v23)
    = shapeCast S1x2048 (W (Proc.devRef .tc main_arg9)) shapeCasts_S2048_S1x2048 := by
  after_results_simp; rfl
theorem host_v24 : StableHlo.after (hostOps0 (F := Ideal)) W (Proc.devRef .tc main_v24)
    = shapeCast S1x2048 (W (Proc.devRef .tc main_arg11)) shapeCasts_S2048_S1x2048 := by
  after_results_simp; rfl

end Cert.KernelIdeal.KVal

end
-- ==== Proof.Spec.lean ====
/-
  What the network computes, as functions of its arrays over the extended reals.

  A hashed linear layer, a batch normalisation with running statistics, a rectifier and a second linear
  layer:
      hidden[r, o] = max (γ[o] · ((x[r, o] + (Σ_t u[r, t] · W[o, t] + β₀[o])) − μ[o]) · rsqrt (σ²[o] + ε) + β[o]) 0
      output[r, o] = Σ_i hidden[r, i] · W₂[o, i] + b₂[o]
  Each sum is one unordered finite sum. `hiddenUnit` is the scalar part of one hidden entry once its inner
  product is known; both programs apply exactly this scalar function, in this order of operations.
-/
import Idealize.ShloMosaic.PureOps.Ideal
import Idealize.ShloMosaic.Lib.ValueIdx

noncomputable section

namespace Cert.Spec

open Idealize.ShloMosaic Idealize.ShloMosaic.ValueIdx

/-- One hidden entry from its inner product `s`, the image feature `x`, the layer bias `b₀`, and the
    normalisation's scale `g`, shift `b`, running mean `mu` and running variance `v`; the words are the
    float32 patterns of ε = 1e-5 (rounded) and of zero. -/
def hiddenUnit (s x b₀ g b mu v : EReal) : EReal :=
  max (g * ((x + (s + b₀)) - mu) * Ideal.rsqrt (v + Ideal.ofBits .f32 0x3727C5AC#32) + b)
    (Ideal.ofBits .f32 0x00000000#32)

/-- The hidden layer over whole arrays: entry (r, o) contracts row r of the text features with row o of the
    hashed weight matrix. -/
def hidden (x : (⟨2, ![512, 2048]⟩ : Shape).Idx → EReal) (u : (⟨2, ![512, 4096]⟩ : Shape).Idx → EReal)
    (W : (⟨2, ![2048, 4096]⟩ : Shape).Idx → EReal) (b₀ g b mu v : (⟨1, ![2048]⟩ : Shape).Idx → EReal) :
    (⟨2, ![512, 2048]⟩ : Shape).Idx → EReal := fun i =>
  hiddenUnit (∑ k : Fin 4096, u (ix2 (i 0) k) * W (ix2 (i 1) k)) (x i)
    (b₀ (ix1 (i 1))) (g (ix1 (i 1))) (b (ix1 (i 1))) (mu (ix1 (i 1))) (v (ix1 (i 1)))

/-- The output layer over whole arrays: entry (r, o) contracts row r of the hidden layer with row o of the
    second weight matrix and adds the bias. -/
def output (y : (⟨2, ![512, 2048]⟩ : Shape).Idx → EReal) (W₂ : (⟨2, ![2048, 2048]⟩ : Shape).Idx → EReal)
    (b₂ : (⟨1, ![2048]⟩ : Shape).Idx → EReal) : (⟨2, ![512, 2048]⟩ : Shape).Idx → EReal := fun i =>
  (∑ k : Fin 2048, y (ix2 (i 0) k) * W₂ (ix2 (i 1) k)) + b₂ (ix1 (i 1))

end Cert.Spec

end
-- ==== Proof.HiddenPayload.lean ====
/-
  The first kernel's stored value, read at one index of its 512×512 block.

  The body contracts the whole text-feature array `u` (512×4096) with one 512-row slab `w` of the hashed
  weight matrix along the last axis of both, and then works entry by entry with the slab's pieces of the
  1×2048 rows: at block index (p, q) it holds the scalar function `Spec.hiddenUnit` of the inner product
  Σ_k u[p, k] · w[q, k], the image feature x[p, q] and the row entries b₀[0, q], g[0, q], b[0, q], mu[0, q],
  v[0, q]. The closing change of float format is the identity on extended reals.
-/
import proofs.«161983_j38104949850564_2_alg».proof.Proof.Gen.KernelIdeal.Skeleton
import proofs.«161983_j38104949850564_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KVal

open Cert.KernelIdeal Cert.KernelIdeal.Gen Idealize.ShloMosaic Idealize.ShloMosaic.ValueIdx

theorem hid_lhs0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl
theorem hid_lhs1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
theorem hid_rhs0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl
theorem hid_rhs1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- The slab product at block index (p, q): the zero accumulator adds nothing. -/
theorem hid_matmul_apply (u w : S512x4096.Idx → EReal) (p q : Fin 512) :
    FloatOps.matmul (F := Ideal) (φ₁ := .bf16) (φ₂ := .bf16) dot_S512x4096_S512x4096_S512x512_1_1_0_0_n_n none u w
      (constant (F := Ideal) S512x512 .f32 0x00000000#32) (ix2 p q) = ∑ k : Fin 4096, u (ix2 p k) * w (ix2 q k) := by
  rw [Ideal.matmul_constant_zero_apply,
    ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q)
      ((contrEquiv1 dot_S512x4096_S512x4096_S512x512_1_1_0_0_n_n 4096 rfl rfl).symm k) = ix2 p k :=
    funext fun a => Fin.ext (by
      match a with
      | ⟨0, _⟩ => exact hid_lhs0 _ _
      | ⟨1, _⟩ => exact (hid_lhs1 _ _).trans hk)
  have er : dot_S512x4096_S512x4096_S512x512_1_1_0_0_n_n.rhsIdx (ix2 p q)
      ((contrEquiv1 dot_S512x4096_S512x4096_S512x512_1_1_0_0_n_n 4096 rfl rfl).symm k) = ix2 q k :=
    funext fun a => Fin.ext (by
      match a with
      | ⟨0, _⟩ => exact hid_rhs0 _ _
      | ⟨1, _⟩ => exact (hid_rhs1 _ _).trans hk)
  rw [el, er]

/-- The first body's payload at block index (p, q). The payload takes its loads in the body's order: text
    features, weight slab, layer bias, image features, variance, scale, mean, shift. -/
theorem hid_pay_apply (u w : S512x4096.Idx → EReal) (b₀ : S1x512.Idx → EReal) (x : S512x512.Idx → EReal)
    (v g mu b : S1x512.Idx → EReal) (p q : Fin 512) :
    k0_pay1 (F := Ideal) u w b₀ x v g mu b (ix2 p q)
      = Cert.Spec.hiddenUnit (∑ k : Fin 4096, u (ix2 p k) * w (ix2 q k)) (x (ix2 p q))
          (b₀ (ix2 (0 : Fin 1) q)) (g (ix2 (0 : Fin 1) q)) (b (ix2 (0 : Fin 1) q)) (mu (ix2 (0 : Fin 1) q)) (v (ix2 (0 : Fin 1) q)) := by
  unfold k0_pay1
  simp only [shapeCast_self]
  show max
      (broadcastTo S512x512 g broadcasts_S1x512_S512x512 (ix2 p q)
          * ((x (ix2 p q)
              + (FloatOps.matmul (F := Ideal) (φ₁ := .bf16) (φ₂ := .bf16) dot_S512x4096_S512x4096_S512x512_1_1_0_0_n_n none u w
                    (constant (F := Ideal) S512x512 .f32 0x00000000#32) (ix2 p q)
                  + broadcastTo S512x512 b₀ broadcasts_S1x512_S512x512 (ix2 p q)))
            - broadcastTo S512x512 mu broadcasts_S1x512_S512x512 (ix2 p q))
        * broadcastTo S512x512
            (rsqrt (F := Ideal) (addf (F := Ideal) v (broadcast S1x512 (Scalar.ofBits (F := Ideal) .f32 0x3727C5AC#32))))
            broadcasts_S1x512_S512x512 (ix2 p q)
        + broadcastTo S512x512 b broadcasts_S1x512_S512x512 (ix2 p q))
      (Scalar.ofBits (F := Ideal) .f32 0x00000000#32) = _
  rw [hid_matmul_apply, broadcastTo_1b_ab_apply, broadcastTo_1b_ab_apply, broadcastTo_1b_ab_apply,
    broadcastTo_1b_ab_apply, broadcastTo_1b_ab_apply]
  rfl

end Cert.KernelIdeal.KVal

end
-- ==== Proof.HiddenRegion.lean ====
/-
  The first region: what its output array (the hidden activation) holds when the region ends, as one
  function of the arrays the region finds.

  The grid has four points; point t reads the whole text-feature array, the t-th 512-row slab of the hashed
  weight matrix, the t-th 512-column panel of the image features and the t-th 512-column piece of each of
  the five 1×2048 rows, and writes the t-th 512-column panel of the activation. Panel t at (p, q) is entry
  (p, 512·t + q), so every panel is a block of the one function `hidRows`; the four panels tile the array.
-/
import proofs.«161983_j38104949850564_2_alg».proof.Proof.Gen.KernelIdeal.Frame
import proofs.«161983_j38104949850564_2_alg».proof.Proof.HiddenPayload

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The hidden layer over the region's own arrays: the five per-feature vectors as 1×2048 rows. -/
def hidRows (x : S512x2048.Idx → EReal) (u : S512x4096.Idx → EReal) (W : S2048x4096.Idx → EReal)
    (b₀ g b mu v : S1x2048.Idx → EReal) : S512x2048.Idx → EReal := fun i =>
  Cert.Spec.hiddenUnit (∑ k : Fin 4096, u (ix2 (i 0) k) * W (ix2 (i 1) k)) (x i)
    (b₀ (ix2 (0 : Fin 1) (i 1))) (g (ix2 (0 : Fin 1) (i 1))) (b (ix2 (0 : Fin 1) (i 1)))
    (mu (ix2 (0 : Fin 1) (i 1))) (v (ix2 (0 : Fin 1) (i 1)))

theorem zero_off0 : (![0, 0] : Fin 2 → Nat) = fun _ => 0 := funext fun a => by fin_cases a <;> rfl

/-- Where each window's block sits at point `t`, decided over the four points. -/
theorem hid_index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val ∧ t.val < 4 :=
  (by decide +kernel : ∀ t : Fin grid0.N, _)

/-- A panel entry from blocks known by coordinates: with `x0` the whole text features, `x1` the weight rows
    from `512·n`, `x3` the image-feature columns from `512·n` and `x2, x4 … x7` the row pieces from column
    `512·n`, the body's payload at `j` is the hidden-layer function at the array index `i = (j₀, 512·n + j₁)`. -/
theorem hid_block (x : S512x2048.Idx → EReal) (u : S512x4096.Idx → EReal) (W : S2048x4096.Idx → EReal)
    (b₀ g b mu v : S1x2048.Idx → EReal)
    (x0 x1 : S512x4096.Idx → EReal) (x2 : S1x512.Idx → EReal) (x3 : S512x512.Idx → EReal)
    (x4 x5 x6 x7 : S1x512.Idx → EReal) (n : Nat)
    (h0 : ∀ a, x0 a = u a)
    (h1 : ∀ (q : Fin 512) (k : Fin 4096) (r : Fin 2048), r.val = n * 512 + q.val → x1 (ix2 q k) = W (ix2 r k))
    (h2 : ∀ (q : Fin 512) (r : Fin 2048), r.val = n * 512 + q.val → x2 (ix2 (0 : Fin 1) q) = b₀ (ix2 (0 : Fin 1) r))
    (h3 : ∀ (p q : Fin 512) (r : Fin 2048), r.val = n * 512 + q.val → x3 (ix2 p q) = x (ix2 p r))
    (h4 : ∀ (q : Fin 512) (r : Fin 2048), r.val = n * 512 + q.val → x4 (ix2 (0 : Fin 1) q) = g (ix2 (0 : Fin 1) r))
    (h5 : ∀ (q : Fin 512) (r : Fin 2048), r.val = n * 512 + q.val → x5 (ix2 (0 : Fin 1) q) = b (ix2 (0 : Fin 1) r))
    (h6 : ∀ (q : Fin 512) (r : Fin 2048), r.val = n * 512 + q.val → x6 (ix2 (0 : Fin 1) q) = mu (ix2 (0 : Fin 1) r))
    (h7 : ∀ (q : Fin 512) (r : Fin 2048), r.val = n * 512 + q.val → x7 (ix2 (0 : Fin 1) q) = v (ix2 (0 : Fin 1) r))
    (j : S512x512.Idx) (i : S512x2048.Idx) (hi0 : (i 0).val = (j 0).val) (hi1 : (i 1).val = n * 512 + (j 1).val) :
    k0_pay1 (F := Ideal) x0 x1 x2 x3 x7 x4 x6 x5 j = hidRows x u W b₀ g b mu v i := by
  obtain ⟨p, q, rfl⟩ : ∃ (p q : Fin 512), j = ix2 p q := ⟨j 0, j 1, eq_ix2 j⟩
  obtain ⟨r0, r1, rfl⟩ : ∃ (r0 : Fin 512) (r1 : Fin 2048), i = ix2 r0 r1 := ⟨i 0, i 1, eq_ix2 i⟩
  have hr0 : r0.val = p.val := hi0
  have hr1 : r1.val = n * 512 + q.val := hi1
  rw [hid_pay_apply]
  have e0 : r0 = p := Fin.ext hr0
  subst e0
  show _ = Cert.Spec.hiddenUnit (∑ k : Fin 4096, u (ix2 r0 k) * W (ix2 r1 k)) (x (ix2 r0 r1))
    (b₀ (ix2 (0 : Fin 1) r1)) (g (ix2 (0 : Fin 1) r1)) (b (ix2 (0 : Fin 1) r1))
    (mu (ix2 (0 : Fin 1) r1)) (v (ix2 (0 : Fin 1) r1))
  rw [h2 q r1 hr1, h3 r0 q r1 hr1, h4 q r1 hr1, h5 q r1 hr1, h6 q r1 hr1, h7 q r1 hr1]
  refine congrArg (fun s => Cert.Spec.hiddenUnit s (x (ix2 r0 r1)) (b₀ (ix2 (0 : Fin 1) r1)) (g (ix2 (0 : Fin 1) r1))
    (b (ix2 (0 : Fin 1) r1)) (mu (ix2 (0 : Fin 1) r1)) (v (ix2 (0 : Fin 1) r1))) ?_
  exact Finset.sum_congr rfl fun k _ => by rw [h0, h1 q k r1 hr1]

/-- WHAT POINT `t` WRITES BACK is block `t` of `hidRows` of the arrays as the region finds them. -/
theorem hid_flushed (c : Dev nD) (t : Fin cfg0.N) :
    (dat0 V c).flushed 8 t
      = ((cfg0.win 8).blk t).view.read (Elt Ideal)
          (hidRows (V c main_arg0) (V c main_v17) (V c main_v8) (V c main_v19) (V c main_v20) (V c main_v21)
            (V c main_v22) (V c main_v23)) := by
  show (cfg0.win 8).cut (grid0.coords t) ((dat0 V c).after 8 t) = _
  rw [after0_8]
  unfold out0_8
  rw [View.canon_unit_zero zero_off0]
  simp only [View.ld_unit_zero (S := S512x4096) zero_off0, View.ld_unit_zero (S := S1x512) zero_off0,
    View.ld_unit_zero (S := S512x512) zero_off0]
  obtain ⟨e00, e01, e10, e11, e20, e21, e30, e31, e40, e41, e50, e51, e60, e61, e70, e71, e80, e81, hlt⟩ :=
    hid_index_facts t
  funext j
  refine hid_block (V c main_arg0) (V c main_v17) (V c main_v8) (V c main_v19) (V c main_v20) (V c main_v21)
    (V c main_v22) (V c main_v23) _ _ _ _ _ _ _ _ t.val ?_ ?_ ?_ ?_ ?_ ?_ ?_ ?_ j _ ?_ ?_
  · intro a
    show V c main_v17 (((cfg0.win 0).blk t).view.emb a) = V c main_v17 a
    refine congrArg _ (funext fun d => Fin.ext ?_)
    match d with
    | ⟨0, _⟩ => show win0_0.index t (0 : Fin 2) * 512 + 1 * (a 0).val = (a 0).val; omega
    | ⟨1, _⟩ => show win0_0.index t (1 : Fin 2) * 4096 + 1 * (a 1).val = (a 1).val; omega
  · intro q k r hr
    show V c main_v8 (((cfg0.win 1).blk t).view.emb (ix2 q k)) = V c main_v8 (ix2 r k)
    refine congrArg _ (funext fun d => Fin.ext ?_)
    match d with
    | ⟨0, _⟩ => show win0_1.index t (0 : Fin 2) * 512 + 1 * q.val = r.val; omega
    | ⟨1, _⟩ => show win0_1.index t (1 : Fin 2) * 4096 + 1 * k.val = k.val; omega
  · intro q r hr
    show V c main_v19 (((cfg0.win 2).blk t).view.emb (ix2 (0 : Fin 1) q)) = V c main_v19 (ix2 (0 : Fin 1) r)
    refine congrArg _ (funext fun d => Fin.ext ?_)
    match d with
    | ⟨0, _⟩ => show win0_2.index t (0 : Fin 2) * 1 + 1 * 0 = 0; omega
    | ⟨1, _⟩ => show win0_2.index t (1 : Fin 2) * 512 + 1 * q.val = r.val; omega
  · intro p q r hr
    show V c main_arg0 (((cfg0.win 3).blk t).view.emb (ix2 p q)) = V c main_arg0 (ix2 p r)
    refine congrArg _ (funext fun d => Fin.ext ?_)
    match d with
    | ⟨0, _⟩ => show win0_3.index t (0 : Fin 2) * 512 + 1 * p.val = p.val; omega
    | ⟨1, _⟩ => show win0_3.index t (1 : Fin 2) * 512 + 1 * q.val = r.val; omega
  · intro q r hr
    show V c main_v20 (((cfg0.win 4).blk t).view.emb (ix2 (0 : Fin 1) q)) = V c main_v20 (ix2 (0 : Fin 1) r)
    refine congrArg _ (funext fun d => Fin.ext ?_)
    match d with
    | ⟨0, _⟩ => show win0_4.index t (0 : Fin 2) * 1 + 1 * 0 = 0; omega
    | ⟨1, _⟩ => show win0_4.index t (1 : Fin 2) * 512 + 1 * q.val = r.val; omega
  · intro q r hr
    show V c main_v21 (((cfg0.win 5).blk t).view.emb (ix2 (0 : Fin 1) q)) = V c main_v21 (ix2 (0 : Fin 1) r)
    refine congrArg _ (funext fun d => Fin.ext ?_)
    match d with
    | ⟨0, _⟩ => show win0_5.index t (0 : Fin 2) * 1 + 1 * 0 = 0; omega
    | ⟨1, _⟩ => show win0_5.index t (1 : Fin 2) * 512 + 1 * q.val = r.val; omega
  · intro q r hr
    show V c main_v22 (((cfg0.win 6).blk t).view.emb (ix2 (0 : Fin 1) q)) = V c main_v22 (ix2 (0 : Fin 1) r)
    refine congrArg _ (funext fun d => Fin.ext ?_)
    match d with
    | ⟨0, _⟩ => show win0_6.index t (0 : Fin 2) * 1 + 1 * 0 = 0; omega
    | ⟨1, _⟩ => show win0_6.index t (1 : Fin 2) * 512 + 1 * q.val = r.val; omega
  · intro q r hr
    show V c main_v23 (((cfg0.win 7).blk t).view.emb (ix2 (0 : Fin 1) q)) = V c main_v23 (ix2 (0 : Fin 1) r)
    refine congrArg _ (funext fun d => Fin.ext ?_)
    match d with
    | ⟨0, _⟩ => show win0_7.index t (0 : Fin 2) * 1 + 1 * 0 = 0; omega
    | ⟨1, _⟩ => show win0_7.index t (1 : Fin 2) * 512 + 1 * q.val = r.val; omega
  · show win0_8.index t (0 : Fin 2) * 512 + 1 * (j 0).val = (j 0).val; omega
  · show win0_8.index t (1 : Fin 2) * 512 + 1 * (j 1).val = t.val * 512 + (j 1).val; omega

/-- An index of the activation array is in point `t`'s panel iff each coordinate is in the panel's range. -/
theorem hid_mem_blk (t : Fin cfg0.N) (i : S512x2048.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v25).slice (win0_8.rect t)).set ↔ _
  rw [View.set_slice_whole, Rect.mem_set_unit]
  exact Iff.rfl

/-- THE ACTIVATION ARRAY when the region ends: the four panels tile it, so it is `hidRows` everywhere. -/
theorem hid_final (c : Dev nD) :
    (dat0 V c).arrAt 8 cfg0.N
      = hidRows (V c main_arg0) (V c main_v17) (V c main_v8) (V c main_v19) (V c main_v20) (V c main_v21)
          (V c main_v22) (V c main_v23) :=
  (dat0 V c).arrAt_eq_of_cover 8 _ (fun t _ => hid_flushed V c t) fun i => by
    have hi0 : (i 0).val < 512 := (i 0).isLt
    have hi1 : (i 1).val < 2048 := (i 1).isLt
    have hN : cfg0.N = 4 := N_0
    let t : Fin cfg0.N := ⟨(i 1).val / 512, by rw [hN]; omega⟩
    obtain ⟨e00, e01, e10, e11, e20, e21, e30, e31, e40, e41, e50, e51, e60, e61, e70, e71, e80, e81, hlt⟩ :=
      hid_index_facts t
    have ht : t.val = (i 1).val / 512 := rfl
    refine ⟨t, flush0_8 t, ?_⟩
    rw [hid_mem_blk]
    intro a
    match a with
    | ⟨0, _⟩ => show win0_8.index t (0 : Fin 2) * 512 ≤ (i 0).val ∧ (i 0).val < win0_8.index t (0 : Fin 2) * 512 + 512; omega
    | ⟨1, _⟩ => show win0_8.index t (1 : Fin 2) * 512 ≤ (i 1).val ∧ (i 1).val < win0_8.index t (1 : Fin 2) * 512 + 512; omega

end Cert.KernelIdeal.KVal

end
-- ==== Proof.ProjPayload.lean ====
/-
  The projection kernel's stored value, read at one index of its 512×512 block.

  The body multiplies the whole hidden activation `y` (512×2048) by one 512-row slab `w` of the second
  weight matrix, contracting the last axis of both, and adds the slab's bias row: at block index (p, q) it
  holds  Σ_k y[p, k] · w[q, k] + b[0, q].  The zero accumulator of the matrix product contributes nothing.
-/
import proofs.«161983_j38104949850564_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KVal

open Cert.KernelIdeal Cert.KernelIdeal.Gen Idealize.ShloMosaic Idealize.ShloMosaic.ValueIdx

theorem proj_lhs0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem proj_lhs1 (i : S512x512.Idx) (q : dot_S512x2048_S512x2048_S512x512_1_1_0_0_n_n.contr.Idx) : (dot_S512x2048_S512x2048_S512x512_1_1_0_0_n_n.lhsIdx i q 1).val = (q ⟨0, by decide⟩).val :=
  dot_S512x2048_S512x2048_S512x512_1_1_0_0_n_n.lhsIdx_val_of_single rfl i q
theorem proj_rhs0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem proj_rhs1 (i : S512x512.Idx) (q : dot_S512x2048_S512x2048_S512x512_1_1_0_0_n_n.contr.Idx) : (dot_S512x2048_S512x2048_S512x512_1_1_0_0_n_n.rhsIdx i q 1).val = (q ⟨0, by decide⟩).val :=
  dot_S512x2048_S512x2048_S512x512_1_1_0_0_n_n.rhsIdx_val_of_single rfl i q

/-- The projection body's payload at block index (p, q). -/
theorem proj_pay_apply (y w : S512x2048.Idx → EReal) (b : S1x512.Idx → EReal) (p q : Fin 512) :
    k1_pay1 (F := Ideal) y w b (ix2 p q) = (∑ k : Fin 2048, y (ix2 p k) * w (ix2 q k)) + b (ix2 (0 : Fin 1) q) := by
  unfold k1_pay1
  simp only [shapeCast_self]
  show FloatOps.matmul (F := Ideal) dot_S512x2048_S512x2048_S512x512_1_1_0_0_n_n none y w (constant (F := Ideal) S512x512 .f32 0x00000000#32) (ix2 p q)
      + broadcastTo S512x512 b broadcasts_S1x512_S512x512 (ix2 p q) = _
  rw [Ideal.matmul_constant_zero_apply, broadcastTo_1b_ab_apply,
    ← Equiv.sum_comp (contrEquiv1 dot_S512x2048_S512x2048_S512x512_1_1_0_0_n_n 2048 rfl rfl).symm]
  refine congrArg (· + b (ix2 (0 : Fin 1) q)) (Finset.sum_congr rfl fun k _ => ?_)
  have hk := contrEquiv1_symm_val dot_S512x2048_S512x2048_S512x512_1_1_0_0_n_n 2048 rfl rfl k
  have el : dot_S512x2048_S512x2048_S512x512_1_1_0_0_n_n.lhsIdx (ix2 p q)
      ((contrEquiv1 dot_S512x2048_S512x2048_S512x512_1_1_0_0_n_n 2048 rfl rfl).symm k) = ix2 p k :=
    funext fun a => Fin.ext (by
      match a with
      | ⟨0, _⟩ => exact proj_lhs0 _ _
      | ⟨1, _⟩ => exact (proj_lhs1 _ _).trans hk)
  have er : dot_S512x2048_S512x2048_S512x512_1_1_0_0_n_n.rhsIdx (ix2 p q)
      ((contrEquiv1 dot_S512x2048_S512x2048_S512x512_1_1_0_0_n_n 2048 rfl rfl).symm k) = ix2 q k :=
    funext fun a => Fin.ext (by
      match a with
      | ⟨0, _⟩ => exact proj_rhs0 _ _
      | ⟨1, _⟩ => exact (proj_rhs1 _ _).trans hk)
  rw [el, er]

end Cert.KernelIdeal.KVal

end
-- ==== Proof.ProjRegion.lean ====
/-
  The projection region: what its output array holds when the region ends, as one function of the arrays
  the region finds.

  The grid has four points; point t reads the whole hidden activation, the t-th 512-row slab of the second
  weight matrix and the t-th 512-column piece of the bias row, and writes the t-th 512-column panel of the
  output. Panel t at (p, q) is output entry (p, 512·t + q), and slab row q is weight row 512·t + q, so every
  panel is a block of the one function `projRows`; the four panels tile the array.
-/
import proofs.«161983_j38104949850564_2_alg».proof.Proof.Gen.KernelIdeal.Frame
import proofs.«161983_j38104949850564_2_alg».proof.Proof.ProjPayload

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The output layer over the region's own arrays: the bias as a 1×2048 row. -/
def projRows (y : S512x2048.Idx → EReal) (w : S2048x2048.Idx → EReal) (b : S1x2048.Idx → EReal) :
    S512x2048.Idx → EReal := fun i =>
  (∑ k : Fin 2048, y (ix2 (i 0) k) * w (ix2 (i 1) k)) + b (ix2 (0 : Fin 1) (i 1))

theorem zero_off : (![0, 0] : Fin 2 → Nat) = fun _ => 0 := funext fun a => by fin_cases a <;> rfl

/-- Where each window's block sits at point `t`, decided over the four points. -/
theorem proj_index_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val ∧ t.val < 4 :=
  (by decide +kernel : ∀ t : Fin grid1.N, _)

/-- A panel entry from blocks known by coordinates: if `x0` is the whole activation, `x1` the slab of weight
    rows from `512·n` and `x2` the bias columns from `512·n`, the body's payload at `j` is the output function
    at the array index `i` with `i = (j₀, 512·n + j₁)`. -/
theorem proj_block (y : S512x2048.Idx → EReal) (w : S2048x2048.Idx → EReal) (b : S1x2048.Idx → EReal)
    (x0 x1 : S512x2048.Idx → EReal) (x2 : S1x512.Idx → EReal) (n : Nat)
    (h0 : ∀ u, x0 u = y u)
    (h1 : ∀ (q : Fin 512) (k : Fin 2048) (r : Fin 2048), r.val = n * 512 + q.val → x1 (ix2 q k) = w (ix2 r k))
    (h2 : ∀ (q : Fin 512) (r : Fin 2048), r.val = n * 512 + q.val → x2 (ix2 (0 : Fin 1) q) = b (ix2 (0 : Fin 1) r))
    (j : S512x512.Idx) (i : S512x2048.Idx) (hi0 : (i 0).val = (j 0).val) (hi1 : (i 1).val = n * 512 + (j 1).val) :
    k1_pay1 (F := Ideal) x0 x1 x2 j = projRows y w b i := by
  obtain ⟨p, q, rfl⟩ : ∃ (p q : Fin 512), j = ix2 p q := ⟨j 0, j 1, eq_ix2 j⟩
  obtain ⟨r0, r1, rfl⟩ : ∃ (r0 : Fin 512) (r1 : Fin 2048), i = ix2 r0 r1 := ⟨i 0, i 1, eq_ix2 i⟩
  have hr0 : r0.val = p.val := hi0
  have hr1 : r1.val = n * 512 + q.val := hi1
  rw [proj_pay_apply]
  have e0 : r0 = p := Fin.ext hr0
  subst e0
  show _ = (∑ k : Fin 2048, y (ix2 r0 k) * w (ix2 r1 k)) + b (ix2 (0 : Fin 1) r1)
  rw [h2 q r1 hr1]
  exact congrArg (· + b (ix2 (0 : Fin 1) r1)) (Finset.sum_congr rfl fun k _ => by rw [h0, h1 q k r1 hr1])

/-- WHAT POINT `t` WRITES BACK is block `t` of `projRows` of the arrays as the region finds them. -/
theorem proj_flushed (c : Dev nD) (t : Fin cfg1.N) :
    (dat1 V c).flushed 3 t
      = ((cfg1.win 3).blk t).view.read (Elt Ideal) (projRows (V c main_v25) (V c main_v18) (V c main_v24)) := by
  show (cfg1.win 3).cut (grid1.coords t) ((dat1 V c).after 3 t) = _
  rw [after1_3]
  unfold out1_3
  rw [View.canon_unit_zero zero_off]
  simp only [View.ld_unit_zero (S := S512x2048) zero_off, View.ld_unit_zero (S := S1x512) zero_off]
  obtain ⟨e00, e01, e10, e11, e20, e21, e30, e31, hlt⟩ := proj_index_facts t
  funext j
  refine proj_block (V c main_v25) (V c main_v18) (V c main_v24) _ _ _ t.val ?_ ?_ ?_ j _ ?_ ?_
  · intro u
    show V c main_v25 (((cfg1.win 0).blk t).view.emb u) = V c main_v25 u
    refine congrArg _ (funext fun a => Fin.ext ?_)
    match a with
    | ⟨0, _⟩ => show win1_0.index t (0 : Fin 2) * 512 + 1 * (u 0).val = (u 0).val; omega
    | ⟨1, _⟩ => show win1_0.index t (1 : Fin 2) * 2048 + 1 * (u 1).val = (u 1).val; omega
  · intro q k r hr
    show V c main_v18 (((cfg1.win 1).blk t).view.emb (ix2 q k)) = V c main_v18 (ix2 r k)
    refine congrArg _ (funext fun a => Fin.ext ?_)
    match a with
    | ⟨0, _⟩ => show win1_1.index t (0 : Fin 2) * 512 + 1 * q.val = r.val; omega
    | ⟨1, _⟩ => show win1_1.index t (1 : Fin 2) * 2048 + 1 * k.val = k.val; omega
  · intro q r hr
    show V c main_v24 (((cfg1.win 2).blk t).view.emb (ix2 (0 : Fin 1) q)) = V c main_v24 (ix2 (0 : Fin 1) r)
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * q.val = r.val; omega
  · show win1_3.index t (0 : Fin 2) * 512 + 1 * (j 0).val = (j 0).val; omega
  · show win1_3.index t (1 : Fin 2) * 512 + 1 * (j 1).val = t.val * 512 + (j 1).val; omega

/-- An index of the output array is in point `t`'s panel iff each coordinate is in the panel's range. -/
theorem proj_mem_blk (t : Fin cfg1.N) (i : S512x2048.Idx) :
    i ∈ ((cfg1.win 3).blk t).view.set ↔ ∀ a : Fin 2, win1_3.index t a * S512x512.size a ≤ (i a).val
      ∧ (i a).val < win1_3.index t a * S512x512.size a + S512x512.size a := by
  show i ∈ ((View.whole main_v26).slice (win1_3.rect t)).set ↔ _
  rw [View.set_slice_whole, Rect.mem_set_unit]
  exact Iff.rfl

/-- THE OUTPUT ARRAY when the region ends: the four panels tile it, so it is `projRows` everywhere. -/
theorem proj_final (c : Dev nD) :
    (dat1 V c).arrAt 3 cfg1.N = projRows (V c main_v25) (V c main_v18) (V c main_v24) :=
  (dat1 V c).arrAt_eq_of_cover 3 _ (fun t _ => proj_flushed V c t) fun i => by
    have hi0 : (i 0).val < 512 := (i 0).isLt
    have hi1 : (i 1).val < 2048 := (i 1).isLt
    have hN : cfg1.N = 4 := N_1
    let t : Fin cfg1.N := ⟨(i 1).val / 512, by rw [hN]; omega⟩
    obtain ⟨e00, e01, e10, e11, e20, e21, e30, e31, hlt⟩ := proj_index_facts t
    have ht : t.val = (i 1).val / 512 := rfl
    refine ⟨t, flush1_3 t, ?_⟩
    rw [proj_mem_blk]
    intro a
    match a with
    | ⟨0, _⟩ => show win1_3.index t (0 : Fin 2) * 512 ≤ (i 0).val ∧ (i 0).val < win1_3.index t (0 : Fin 2) * 512 + 512; omega
    | ⟨1, _⟩ => show win1_3.index t (1 : Fin 2) * 512 ≤ (i 1).val ∧ (i 1).val < win1_3.index t (1 : Fin 2) * 512 + 512; omega

end Cert.KernelIdeal.KVal

end
-- ==== Proof.KernelValue.lean ====
/-
  The idealized kernel program's result, as the network function of its arguments.

  The result buffer after the run is the second region's output array; that region finds the activation the
  first region left, the second weight matrix and the bias row; the first region finds the text features,
  the hashed weights and the six rows the host operations prepared. Composing the two regions' whole-array
  values with the host stretch's gives `Spec.output (Spec.hidden …)` of the arguments; a 1×2048 row read at
  (0, o) is its vector at o.
-/
import proofs.«161983_j38104949850564_2_alg».proof.Proof.FrameRes
import proofs.«161983_j38104949850564_2_alg».proof.Proof.HostVals
import proofs.«161983_j38104949850564_2_alg».proof.Proof.HiddenRegion
import proofs.«161983_j38104949850564_2_alg».proof.Proof.ProjRegion

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx

/-- The hidden layer over rows that are reshaped vectors is the hidden layer over the vectors. -/
theorem hidRows_of_vectors (x : S512x2048.Idx → EReal) (u : S512x4096.Idx → EReal) (Wt : S2048x4096.Idx → EReal)
    (b₀ g b mu v : S2048.Idx → EReal) :
    hidRows x u Wt (shapeCast S1x2048 b₀ shapeCasts_S2048_S1x2048) (shapeCast S1x2048 g shapeCasts_S2048_S1x2048)
        (shapeCast S1x2048 b shapeCasts_S2048_S1x2048) (shapeCast S1x2048 mu shapeCasts_S2048_S1x2048)
        (shapeCast S1x2048 v shapeCasts_S2048_S1x2048)
      = Cert.Spec.hidden x u Wt b₀ g b mu v := by
  funext i
  obtain ⟨r, o, rfl⟩ : ∃ (r : Fin 512) (o : Fin 2048), i = ix2 r o := ⟨i 0, i 1, eq_ix2 i⟩
  show Cert.Spec.hiddenUnit (∑ k : Fin 4096, u (ix2 r k) * Wt (ix2 o k)) (x (ix2 r o))
      (shapeCast S1x2048 b₀ shapeCasts_S2048_S1x2048 (ix2 (0 : Fin 1) o))
      (shapeCast S1x2048 g shapeCasts_S2048_S1x2048 (ix2 (0 : Fin 1) o))
      (shapeCast S1x2048 b shapeCasts_S2048_S1x2048 (ix2 (0 : Fin 1) o))
      (shapeCast S1x2048 mu shapeCasts_S2048_S1x2048 (ix2 (0 : Fin 1) o))
      (shapeCast S1x2048 v shapeCasts_S2048_S1x2048 (ix2 (0 : Fin 1) o))
    = Cert.Spec.hiddenUnit (∑ k : Fin 4096, u (ix2 r k) * Wt (ix2 o k)) (x (ix2 r o))
      (b₀ (ix1 o)) (g (ix1 o)) (b (ix1 o)) (mu (ix1 o)) (v (ix1 o))
  rw [shapeCast_a_1a_apply, shapeCast_a_1a_apply, shapeCast_a_1a_apply, shapeCast_a_1a_apply, shapeCast_a_1a_apply]

/-- The output layer over a bias row that is a reshaped vector is the output layer over the vector. -/
theorem projRows_of_vector (y : S512x2048.Idx → EReal) (w : S2048x2048.Idx → EReal) (b : S2048.Idx → EReal) :
    projRows y w (shapeCast S1x2048 b shapeCasts_S2048_S1x2048) = Cert.Spec.output y w b := by
  funext i
  obtain ⟨r, o, rfl⟩ : ∃ (r : Fin 512) (o : Fin 2048), i = ix2 r o := ⟨i 0, i 1, eq_ix2 i⟩
  show (∑ k : Fin 2048, y (ix2 r k) * w (ix2 o k)) + shapeCast S1x2048 b shapeCasts_S2048_S1x2048 (ix2 (0 : Fin 1) o)
    = (∑ k : Fin 2048, y (ix2 r k) * w (ix2 o k)) + b (ix1 o)
  rw [shapeCast_a_1a_apply]

variable (m : (ℓ : Loc nD τ sig) → Buf (Elt Ideal) ℓ) (ρ : Dev nD → PrngReg)

/-- The network function of the launch memory's argument arrays on core `c`. -/
def network (c : Dev nD) : S512x2048.Idx → EReal :=
  Cert.Spec.output
    (Cert.Spec.hidden (m ((c : Thread nD τ).loc main_arg0)) (m ((c : Thread nD τ).loc main_arg1))
      (hashedWeights (m ((c : Thread nD τ).loc main_arg2)) (m ((c : Thread nD τ).loc main_arg4)) (m ((c : Thread nD τ).loc main_arg12)))
      (hashedBias (m ((c : Thread nD τ).loc main_arg3)) (m ((c : Thread nD τ).loc main_arg5)) (m ((c : Thread nD τ).loc main_arg13)))
      (m ((c : Thread nD τ).loc main_arg6)) (m ((c : Thread nD τ).loc main_arg7))
      (m ((c : Thread nD τ).loc main_arg8)) (m ((c : Thread nD τ).loc main_arg9)))
    (m ((c : Thread nD τ).loc main_arg10)) (m ((c : Thread nD τ).loc main_arg11))

/-- The activation array the first region leaves is the hidden layer of the arguments. -/
theorem activation_eq (c : Dev nD) :
    V2 m ρ c main_v25
      = Cert.Spec.hidden (m ((c : Thread nD τ).loc main_arg0)) (m ((c : Thread nD τ).loc main_arg1))
          (hashedWeights (m ((c : Thread nD τ).loc main_arg2)) (m ((c : Thread nD τ).loc main_arg4)) (m ((c : Thread nD τ).loc main_arg12)))
          (hashedBias (m ((c : Thread nD τ).loc main_arg3)) (m ((c : Thread nD τ).loc main_arg5)) (m ((c : Thread nD τ).loc main_arg13)))
          (m ((c : Thread nD τ).loc main_arg6)) (m ((c : Thread nD τ).loc main_arg7))
          (m ((c : Thread nD τ).loc main_arg8)) (m ((c : Thread nD τ).loc main_arg9)) := by
  have a0 : V1 m ρ c main_arg0 = m ((c : Thread nD τ).loc main_arg0) := host_arg0 (W0 m ρ c)
  have a17 : V1 m ρ c main_v17 = m ((c : Thread nD τ).loc main_arg1) := host_v17 (W0 m ρ c)
  have a8 : V1 m ρ c main_v8 = hashedWeights (m ((c : Thread nD τ).loc main_arg2)) (m ((c : Thread nD τ).loc main_arg4))
      (m ((c : Thread nD τ).loc main_arg12)) := host_v8 (W0 m ρ c)
  have a19 : V1 m ρ c main_v19 = shapeCast S1x2048 (hashedBias (m ((c : Thread nD τ).loc main_arg3))
      (m ((c : Thread nD τ).loc main_arg5)) (m ((c : Thread nD τ).loc main_arg13))) shapeCasts_S2048_S1x2048 := host_v19 (W0 m ρ c)
  have a20 : V1 m ρ c main_v20 = shapeCast S1x2048 (m ((c : Thread nD τ).loc main_arg6)) shapeCasts_S2048_S1x2048 := host_v20 (W0 m ρ c)
  have a21 : V1 m ρ c main_v21 = shapeCast S1x2048 (m ((c : Thread nD τ).loc main_arg7)) shapeCasts_S2048_S1x2048 := host_v21 (W0 m ρ c)
  have a22 : V1 m ρ c main_v22 = shapeCast S1x2048 (m ((c : Thread nD τ).loc main_arg8)) shapeCasts_S2048_S1x2048 := host_v22 (W0 m ρ c)
  have a23 : V1 m ρ c main_v23 = shapeCast S1x2048 (m ((c : Thread nD τ).loc main_arg9)) shapeCasts_S2048_S1x2048 := host_v23 (W0 m ρ c)
  have hy : V2 m ρ c main_v25 = hidRows (V1 m ρ c main_arg0) (V1 m ρ c main_v17) (V1 m ρ c main_v8) (V1 m ρ c main_v19)
      (V1 m ρ c main_v20) (V1 m ρ c main_v21) (V1 m ρ c main_v22) (V1 m ρ c main_v23) :=
    (W2_arr m ρ c 8).trans (hid_final (V1 m ρ) c)
  rw [hy, a0, a17, a8, a19, a20, a21, a22, a23]
  exact hidRows_of_vectors _ _ _ _ _ _ _ _

/-- THE RESULT BUFFER'S CONTENTS at the end of the run: the network function of the arguments. -/
theorem result_eq (c : Dev nD) : W3 m ρ c (Proc.devRef .tc main_v26) = network m c := by
  have h18 : V2 m ρ c main_v18 = m ((c : Thread nD τ).loc main_arg10) :=
    (W2_of_ne m ρ c main_v18 (by decide)).trans (host_v18 (W0 m ρ c))
  have h24 : V2 m ρ c main_v24 = shapeCast S1x2048 (m ((c : Thread nD τ).loc main_arg11)) shapeCasts_S2048_S1x2048 :=
    (W2_of_ne m ρ c main_v24 (by decide)).trans (host_v24 (W0 m ρ c))
  have hout : W3 m ρ c (Proc.devRef .tc main_v26)
      = projRows (V2 m ρ c main_v25) (V2 m ρ c main_v18) (V2 m ρ c main_v24) :=
    (W3_arr m ρ c 3).trans (proj_final (V2 m ρ) c)
  rw [hout, activation_eq m ρ c, h18, h24]
  exact projRows_of_vector _ _ _

/-- The run of the idealized kernel program, with the result named: every weakly fair execution ends with the
    result buffer at the network function of the arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v26) = network m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c => ⟨(h c).1.trans (result_eq m ρ c), (h c).2⟩) (frame_res m ρ)

end Cert.KernelIdeal.KVal

end
-- ==== Proof.RefValue.lean ====
/-
  The reference program's result is the network function of its arguments.

  Read one operation at a time, the reference computes at index (r, o) of its activation exactly the scalar
  function `Spec.hiddenUnit` of the inner product of text row r with hashed weight row o, and at index (r, o)
  of its result the inner product of activation row r with row o of the second weight matrix plus the bias:
  the broadcasts of the per-feature vectors read their operand at column o. The hashed weight matrix and the
  hashed bias stay the reference's own host stages, unopened.
-/
import proofs.«161983_j38104949850564_2_alg».proof.Proof.Gen.ReferenceIdeal.Read
import proofs.«161983_j38104949850564_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's activation (after the rectifier) is the hidden layer of the specification. -/
theorem ref_hidden (x0 : (⟨S512x2048, .f32⟩ : BufTy).Contents (Elt Ideal)) (x1 : (⟨S512x4096, .f32⟩ : BufTy).Contents (Elt Ideal)) (x2 : (⟨S8388608, .f32⟩ : BufTy).Contents (Elt Ideal)) (x3 : (⟨S2048, .f32⟩ : BufTy).Contents (Elt Ideal)) (x4 : (⟨S2048x4096, .f32⟩ : BufTy).Contents (Elt Ideal)) (x5 x6 x7 x8 x9 : (⟨S2048, .f32⟩ : BufTy).Contents (Elt Ideal)) (x12 : (⟨S2048x4096, .i32⟩ : BufTy).Contents (Elt Ideal)) (x13 : (⟨S2048, .i32⟩ : BufTy).Contents (Elt Ideal)) :
    val_main_v36 (F := Ideal) x0 x1 x2 x3 x4 x5 x6 x7 x8 x9 x12 x13
      = Cert.Spec.hidden x0 x1 (val_main_v7 (F := Ideal) x2 x4 x12) (val_main_v15 (F := Ideal) x3 x5 x13) x6 x7 x8 x9 := by
  funext i
  obtain ⟨r, o, rfl⟩ : ∃ (r : Fin 512) (o : Fin 2048), i = ix2 r o := ⟨i 0, i 1, eq_ix2 i⟩
  rw [val_main_v36_apply, val_main_v35_apply, val_main_v32_apply, val_main_v26_apply, val_main_v25_apply,
    val_main_v24_apply, val_main_v23_apply, val_main_v20_apply, val_main_v19_apply, val_main_v16_apply,
    val_main_v18_apply, val_main_v17_apply, val_main_v22_apply, val_main_v21_apply, val_main_v31_apply,
    val_main_v30_apply, val_main_v29_apply, val_main_v28_apply, val_main_v27_apply, val_main_cst_apply,
    val_main_v34_apply, val_main_v33_apply, val_main_call0_v0_apply, val_main_call0_cst_apply]
  have el : ∀ k : Fin 4096, lidx_main_v16 (ix2 r o) k = ix2 r k := fun k =>
    funext fun a => Fin.ext (by match a with | ⟨0, _⟩ => rfl | ⟨1, _⟩ => rfl)
  have er : ∀ k : Fin 4096, ridx_main_v16 (ix2 r o) k = ix2 o k := fun k =>
    funext fun a => Fin.ext (by match a with | ⟨0, _⟩ => rfl | ⟨1, _⟩ => rfl)
  have e17 : idx_main_v17 (idx_main_v18 (ix2 r o)) = ix1 o := funext fun a => Fin.ext (by match a with | ⟨0, _⟩ => rfl)
  have e21 : idx_main_v21 (idx_main_v22 (ix2 r o)) = ix1 o := funext fun a => Fin.ext (by match a with | ⟨0, _⟩ => rfl)
  have e24 : idx_main_v24 (idx_main_v25 (ix2 r o)) = ix1 o := funext fun a => Fin.ext (by match a with | ⟨0, _⟩ => rfl)
  have e30 : idx_main_v30 (idx_main_v31 (ix2 r o)) = ix1 o := funext fun a => Fin.ext (by match a with | ⟨0, _⟩ => rfl)
  have e33 : idx_main_v33 (idx_main_v34 (ix2 r o)) = ix1 o := funext fun a => Fin.ext (by match a with | ⟨0, _⟩ => rfl)
  simp only [el, er, e17, e21, e24, e30, e33]
  rfl

/-- The reference's result is the output layer of the specification over that activation. -/
theorem ref_output (x0 : (⟨S512x2048, .f32⟩ : BufTy).Contents (Elt Ideal)) (x1 : (⟨S512x4096, .f32⟩ : BufTy).Contents (Elt Ideal)) (x2 : (⟨S8388608, .f32⟩ : BufTy).Contents (Elt Ideal)) (x3 : (⟨S2048, .f32⟩ : BufTy).Contents (Elt Ideal)) (x4 : (⟨S2048x4096, .f32⟩ : BufTy).Contents (Elt Ideal)) (x5 x6 x7 x8 x9 : (⟨S2048, .f32⟩ : BufTy).Contents (Elt Ideal)) (x10 : (⟨S2048x2048, .f32⟩ : BufTy).Contents (Elt Ideal)) (x11 : (⟨S2048, .f32⟩ : BufTy).Contents (Elt Ideal)) (x12 : (⟨S2048x4096, .i32⟩ : BufTy).Contents (Elt Ideal)) (x13 : (⟨S2048, .i32⟩ : BufTy).Contents (Elt Ideal)) :
    val_main_v40 (F := Ideal) x0 x1 x2 x3 x4 x5 x6 x7 x8 x9 x10 x11 x12 x13
      = Cert.Spec.output
          (Cert.Spec.hidden x0 x1 (val_main_v7 (F := Ideal) x2 x4 x12) (val_main_v15 (F := Ideal) x3 x5 x13) x6 x7 x8 x9)
          x10 x11 := by
  funext i
  obtain ⟨r, o, rfl⟩ : ∃ (r : Fin 512) (o : Fin 2048), i = ix2 r o := ⟨i 0, i 1, eq_ix2 i⟩
  rw [val_main_v40_apply, val_main_v37_apply, val_main_v39_apply, val_main_v38_apply, ref_hidden]
  have el : ∀ k : Fin 2048, lidx_main_v37 (ix2 r o) k = ix2 r k := fun k =>
    funext fun a => Fin.ext (by match a with | ⟨0, _⟩ => rfl | ⟨1, _⟩ => rfl)
  have er : ∀ k : Fin 2048, ridx_main_v37 (ix2 r o) k = ix2 o k := fun k =>
    funext fun a => Fin.ext (by match a with | ⟨0, _⟩ => rfl | ⟨1, _⟩ => rfl)
  have e38 : idx_main_v38 (idx_main_v39 (ix2 r o)) = ix1 o := funext fun a => Fin.ext (by match a with | ⟨0, _⟩ => rfl)
  simp only [el, er, e38]
  rfl

end Cert.ReferenceIdeal.RefValue

end
-- ==== Proof.Bridge.lean ====
/-
  The two programs form the hashed weights and the hashed bias by the same host operations: wrap a negative
  index by the table's length, gather, multiply by the sign array. The reference's two stages are therefore
  the kernel program's two host values, as functions of the same arguments; nothing of the gather is opened.
-/
import proofs.«161983_j38104949850564_2_alg».proof.Proof.Gen.ReferenceIdeal.Read
import proofs.«161983_j38104949850564_2_alg».proof.Proof.HostVals

noncomputable section

namespace Cert.Bridge

open Idealize.ShloMosaic

/-- The reference's hashed weight matrix is the kernel program's. -/
theorem hashedWeights_ref (x2 : FVec Ideal Cert.KernelIdeal.S8388608 .f32) (x4 : FVec Ideal Cert.KernelIdeal.S2048x4096 .f32)
    (x12 : IVec Cert.KernelIdeal.S2048x4096 32) :
    Cert.ReferenceIdeal.Read.val_main_v7 (F := Ideal) x2 x4 x12 = Cert.KernelIdeal.KVal.hashedWeights x2 x4 x12 := by
  unfold Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.KernelIdeal.KVal.hashedWeights
  rfl

/-- The reference's hashed bias is the kernel program's. -/
theorem hashedBias_ref (x3 x5 : FVec Ideal Cert.KernelIdeal.S2048 .f32) (x13 : IVec Cert.KernelIdeal.S2048 32) :
    Cert.ReferenceIdeal.Read.val_main_v15 (F := Ideal) x3 x5 x13 = Cert.KernelIdeal.KVal.hashedBias x3 x5 x13 := by
  unfold Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_c_1
    Cert.ReferenceIdeal.Read.val_main_c_2 Cert.KernelIdeal.KVal.hashedBias
  rfl

end Cert.Bridge

end
-- ==== Proof.lean ====
/-
  The kernel program and its reference compute one function of their arguments over the extended reals.

  Both are a hashed linear layer, a batch normalisation with running statistics, a rectifier and a second
  linear layer (Proof/Spec.lean):
      hidden[r, o] = max (γ[o] · ((x[r, o] + (Σ_t u[r, t] · W[o, t] + β₀[o])) − μ[o]) · rsqrt (σ²[o] + ε) + β[o]) 0
      output[r, o] = Σ_i hidden[r, i] · W₂[o, i] + b₂[o]
  with W and β₀ gathered from flat tables and multiplied by sign arrays on the host, identically in both.
  The kernel program tiles the feature axis o into four panels of 512 columns, twice: each grid point forms
  one panel by a matrix product into a zero accumulator and entrywise arithmetic in the reference's own
  order, so panel t at (p, q) is the function at (p, 512·t + q) and the panels tile the array
  (Proof/HiddenRegion.lean, Proof/ProjRegion.lean). A matrix product into zero is the host's contraction,
  a change of float format is the identity, and a 1×2048 row read at (0, o) is its vector at o; no law of
  arithmetic beyond these readings is used, so the inputs' finiteness is never opened.
  The ideal pass rewrote nothing, so the idealization claim is empty.
-/
import proofs.«161983_j38104949850564_2_alg».proof.Defs
import proofs.«161983_j38104949850564_2_alg».proof.Proof.Gen.Kernel
import proofs.«161983_j38104949850564_2_alg».proof.Proof.Gen.Kernel.Skeleton
import proofs.«161983_j38104949850564_2_alg».proof.Proof.Gen.Kernel.Launch
import proofs.«161983_j38104949850564_2_alg».proof.Proof.Gen.Kernel.Points
import proofs.«161983_j38104949850564_2_alg».proof.Proof.Gen.Kernel.Frame
import proofs.«161983_j38104949850564_2_alg».proof.Proof.Gen.KernelIdeal
import proofs.«161983_j38104949850564_2_alg».proof.Proof.Gen.KernelIdeal.Skeleton
import proofs.«161983_j38104949850564_2_alg».proof.Proof.Gen.KernelIdeal.Launch
import proofs.«161983_j38104949850564_2_alg».proof.Proof.Gen.KernelIdeal.Points
import proofs.«161983_j38104949850564_2_alg».proof.Proof.Gen.KernelIdeal.Frame
import proofs.«161983_j38104949850564_2_alg».proof.Proof.Gen.ReferenceIdeal
import proofs.«161983_j38104949850564_2_alg».proof.Proof.Gen.ReferenceIdeal.Run
import proofs.«161983_j38104949850564_2_alg».proof.Proof.Gen.ReferenceIdeal.Read
import proofs.«161983_j38104949850564_2_alg».proof.Proof.Gen.Pre_finite_inputs
import proofs.«161983_j38104949850564_2_alg».proof.Proof.KernelValue
import proofs.«161983_j38104949850564_2_alg».proof.Proof.RefValue
import proofs.«161983_j38104949850564_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the network function of the (agreeing) arguments. -/
theorem algebraic : Cert.algebraic_KernelIdeal_ReferenceIdeal := by
  intro m ρ m' ρ' _ hagree
  refine ⟨fun c => Cert.KernelIdeal.KVal.network m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13⟩ := hagree c
  rw [Cert.ReferenceIdeal.Read.val_main_v40_eq, Cert.ReferenceIdeal.RefValue.ref_output,
    g0, g1, g2, g3, g4, g5, g6, g7, g8, g9, g10, g11, g12, g13,
    Cert.Bridge.hashedWeights_ref, Cert.Bridge.hashedBias_ref]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
